-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x64x64 : Shape := ⟨3, ![16, 64, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x64x64 : S_.BroadcastsInDim S16x64x64 (![] : Fin 0 → Fin S16x64x64.rank)
  reducesTo_S16x64x64_S_d0_1_2 : S16x64x64.ReducesTo [0, 1, 2] S_

variable [Facts]

def fn {F : FTy → Type} [FloatOps F] (main_arg0 : FVec F S16x2048x64 .f32) (main_arg1 : FVec F S16x64x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x64x64 .f32 := Host.absf main_arg1
  let main_cst_0 : FVec F S_ .f32 := constant S_ .f32 0x7F800000#32
  let main_v5 : FVec F S16x64x64 .f32 := broadcastInDim S16x64x64 ![] bcast_S_S16x64x64 main_cst_0
  let main_v6 : IVec S16x64x64 1 := cmpf .olt main_v4 main_v5
  let main_c_1 : IVec S_ 1 := constantI S_ 1 1#1
  let main_v7 : IVec S_ 1 := (fun x v => Host.reduce IntOp.andi x v reducesTo_S16x64x64_S_d0_1_2 h_S_) main_v6 main_c_1
  let main_v8 : IVec S_ 1 := andi main_v3 main_v7
  main_v8
-- ==== Kernel.lean ====
abbrev S16x2048x64 : Shape := ⟨3, ![16, 2048, 64]⟩
abbrev S16x64x64 : Shape := ⟨3, ![16, 64, 64]⟩
abbrev S16x2112x2112 : Shape := ⟨3, ![16, 2112, 2112]⟩
abbrev S1x2048x64 : Shape := ⟨3, ![1, 2048, 64]⟩
abbrev S1x64x64 : Shape := ⟨3, ![1, 64, 64]⟩
abbrev S1x1056x2112 : Shape := ⟨3, ![1, 1056, 2112]⟩
abbrev S2112x64 : Shape := ⟨2, ![2112, 64]⟩
abbrev S2048x64 : Shape := ⟨2, ![2048, 64]⟩
abbrev S64x64 : Shape := ⟨2, ![64, 64]⟩
abbrev S352x64 : Shape := ⟨2, ![352, 64]⟩
abbrev S352x2112 : Shape := ⟨2, ![352, 2112]⟩
abbrev S1x352x2112 : Shape := ⟨3, ![1, 352, 2112]⟩

abbrev nBuf : Space → Nat
  | .hbm => 3
  | .vmem => 7
  | .smem => 0
  | _ => 0

abbrev bufTy : (tb : Table) → Fin (tcTables nBuf tb) → BufTy
  | .hbm, ⟨0, _⟩ => ⟨S16x2048x64, .f32⟩
  | .hbm, ⟨1, _⟩ => ⟨S16x64x64, .f32⟩
  | .hbm, ⟨2, _⟩ => ⟨S16x2112x2112, .f32⟩
  | .local _ .vmem, ⟨0, _⟩ => ⟨S1x2048x64, .f32⟩
  | .local _ .vmem, ⟨1, _⟩ => ⟨S1x2048x64, .f32⟩
  | .local _ .vmem, ⟨2, _⟩ => ⟨S1x64x64, .f32⟩
  | .local _ .vmem, ⟨3, _⟩ => ⟨S1x64x64, .f32⟩
  | .local _ .vmem, ⟨4, _⟩ => ⟨S1x1056x2112, .f32⟩
  | .local _ .vmem, ⟨5, _⟩ => ⟨S1x1056x2112, .f32⟩
  | .local _ .vmem, ⟨6, _⟩ => ⟨S2112x64, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1056_i32 : BitVec 32 := 1056#32
  let v3 : BitVec 32 := Scalar.muli arg1 c1056_i32
  v3
@[reducible] def k0_t1_loop : Scf.Loop 32 :=
  let c0_i32_2 : BitVec 32 := 0#32
  let c3_i32 : BitVec 32 := 3#32
  let v6 : BitVec 32 := Scalar.addi c0_i32_2 c3_i32
  let c1_i32 : BitVec 32 := 1#32
  ⟨c0_i32_2, v6, c1_i32⟩
def k0_mult2 (i : grid0.Coords) (k0_t1 : Fin k0_t1_loop.trips) : BitVec 32 :=
  let arg1 : BitVec 32 := BitVec.ofNat 32 (i 1).val
  let c1056_i32 : BitVec 32 := 1056#32
  let v3 : BitVec 32 := Scalar.muli arg1 c1056_i32
  let v4 : BitVec 32 := v3
  let c0_i32_5 : BitVec 32 := 0#32
  let c0_i32_2 : BitVec 32 := 0#32
  let c1_i32 : BitVec 32 := 1#32
  let arg6 : BitVec 32 := Scf.iv c0_i32_2 c1_i32 k0_t1
  let c1_i32_4 : BitVec 32 := 1#32
  let v7 : BitVec 32 := Scalar.muli arg6 c1_i32_4
  let v8 : BitVec 32 := Scalar.addi c0_i32_5 v7
  let c352_i32 : BitVec 32 := 352#32
  let v9 : BitVec 32 := Scalar.muli v8 c352_i32
  let v10 : BitVec 32 := Scalar.addi v4 v9
  v10
def k0_mult3 (k0_t1 : Fin k0_t1_loop.trips) : BitVec 32 :=
  let c0_i32_5 : BitVec 32 := 0#32
  let c0_i32_2 : BitVec 32 := 0#32
  let c1_i32 : BitVec 32 := 1#32
  let arg6 : BitVec 32 := Scf.iv c0_i32_2 c1_i32 k0_t1
  let c1_i32_4 : BitVec 32 := 1#32
  let v7 : BitVec 32 := Scalar.muli arg6 c1_i32_4
  let v8 : BitVec 32 := Scalar.addi c0_i32_5 v7
  let c352_i32_6 : BitVec 32 := 352#32
  let v12 : BitVec 32 := Scalar.muli v8 c352_i32_6
  v12
def k0_off1 (i : grid0.Coords) (k0_t1 : Fin k0_t1_loop.trips) : Fin 2 → Nat :=
  let arg1 : BitVec 32 := BitVec.ofNat 32 (i 1).val
  let c1056_i32 : BitVec 32 := 1056#32
  let v3 : BitVec 32 := Scalar.muli arg1 c1056_i32
  let v4 : BitVec 32 := v3
  let c0_i32_5 : BitVec 32 := 0#32
  let c0_i32_2 : BitVec 32 := 0#32
  let c1_i32 : BitVec 32 := 1#32
  let arg6 : BitVec 32 := Scf.iv c0_i32_2 c1_i32 k0_t1
  let c1_i32_4 : BitVec 32 := 1#32
  let v7 : BitVec 32 := Scalar.muli arg6 c1_i32_4
  let v8 : BitVec 32 := Scalar.addi c0_i32_5 v7
  let c352_i32 : BitVec 32 := 352#32
  let v9 : BitVec 32 := Scalar.muli v8 c352_i32
  let v10 : BitVec 32 := Scalar.addi v4 v9
  let v11 : BitVec 32 := v10
  let v14 : Index := Scalar.indexCast v11
  let c0_7 : Index := 0#32
  ![v14.toNat, 0]
def k0_off2 (k0_t1 : Fin k0_t1_loop.trips) : Fin 3 → Nat :=
  let c0_11 : Index := 0#32
  let c0_i32_5 : BitVec 32 := 0#32
  let c0_i32_2 : BitVec 32 := 0#32
  let c1_i32 : BitVec 32 := 1#32
  let arg6 : BitVec 32 := Scf.iv c0_i32_2 c1_i32 k0_t1
  let c1_i32_4 : BitVec 32 := 1#32
  let v7 : BitVec 32 := Scalar.muli arg6 c1_i32_4
  let v8 : BitVec 32 := Scalar.addi c0_i32_5 v7
  let c352_i32_6 : BitVec 32 := 352#32
  let v12 : BitVec 32 := Scalar.muli v8 c352_i32_6
  let v13 : BitVec 32 := v12
  let v29 : Index := Scalar.indexCast v13
  let c0_12 : Index := 0#32
  ![0, v29.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1056x2112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2112x64_S2048x64_0_0 : ∀ a, (![0, 0] : Fin 2 → Nat) a + S2048x64.size a ≤ S2112x64.size a
  h_S2048x64 : 0 < S2048x64.numel
  shapeCasts_S2048x64_S2048x64 : S2048x64.ShapeCasts S2048x64
  packedbf16_S2112x64_S2048x64_0_0 : (Rect.unit (s := S2112x64) ![0, 0] S2048x64.size inb_S2112x64_S2048x64_0_0).PackedRows (EltTy.packing .bf16)
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S2112x64_S64x64_2048_0 : ∀ a, (![2048, 0] : Fin 2 → Nat) a + S64x64.size a ≤ S2112x64.size a
  h_S64x64 : 0 < S64x64.numel
  shapeCasts_S64x64_S64x64 : S64x64.ShapeCasts S64x64
  packedbf16_S2112x64_S64x64_2048_0 : (Rect.unit (s := S2112x64) ![2048, 0] S64x64.size inb_S2112x64_S64x64_2048_0).PackedRows (EltTy.packing .bf16)
  inb_S2112x64_S2112x64_0_0 : ∀ a, (![0, 0] : Fin 2 → Nat) a + S2112x64.size a ≤ S2112x64.size a
  h_S2112x64 : 0 < S2112x64.numel
  h_S352x64 : 0 < S352x64.numel
  iota_S352x2112_d0_w32 : S352x2112.Iotas .tc 32 [0]
  iota_S352x2112_d1_w32 : S352x2112.Iotas .tc 32 [1]
  h_S1x352x2112 : 0 < S1x352x2112.numel
  shapeCasts_S1x352x2112_S352x2112 : S1x352x2112.ShapeCasts S352x2112
  shapeCasts_S352x2112_S1x352x2112 : S352x2112.ShapeCasts S1x352x2112
  dot_S352x64_S2112x64_S352x2112_1_1_0_0_n_n_wf : DotDims.WF S352x64 S2112x64 S352x2112 [1] [1] [0] [0] [] []
  hrank0 : 0 < grid0.rank
  k0_mult1_dvd : ∀ i : grid0.Coords, 16 ∣ (k0_mult1 i).toNat
  k0_t1_ok : k0_t1_loop.OK
  k0_mult2_dvd : ∀ (i : grid0.Coords) (k0_t1 : Fin k0_t1_loop.trips), 16 ∣ (k0_mult2 i k0_t1).toNat
  k0_mult3_dvd : ∀ k0_t1 : Fin k0_t1_loop.trips, 16 ∣ (k0_mult3 k0_t1).toNat
  k0_off1_inb : ∀ (i : grid0.Coords) (k0_t1 : Fin k0_t1_loop.trips), ∀ a, (k0_off1 i k0_t1) a + S352x64.size a ≤ S2112x64.size a
  k0_off2_inb : ∀ k0_t1 : Fin k0_t1_loop.trips, ∀ a, (k0_off2 k0_t1) a + S1x352x2112.size a ≤ S1x1056x2112.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S16x64x64.size a
  hwx0_1 : ∀ i : grid0.Coords, EltTy.bits .f32 = 32 ∨ (Rect.block (s := S16x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1056x2112.size a ≤ S16x2112x2112.size a
  hwx0_2 : ∀ i : grid0.Coords, EltTy.bits .f32 = 32 ∨ (Rect.block (s := S16x2112x2112) S1x1056x2112.size (cc0_transform_2 i) (hinb0_2 i)).WholeWords (EltTy.packing .f32)

variable [Facts₀]

def dot_S352x64_S2112x64_S352x2112_1_1_0_0_n_n : DotDims S352x64 S2112x64 S352x2112 where
  lhsContracting := [1]
  rhsContracting := [1]
  lhsNonContracting := [0]
  rhsNonContracting := [0]
  lhsBatch := []
  rhsBatch := []
  wf := dot_S352x64_S2112x64_S352x2112_1_1_0_0_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1056x2112.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x64x64 : Shape := ⟨3, ![16, 64, 64]⟩
abbrev S16x2112x64 : Shape := ⟨3, ![16, 2112, 64]⟩
abbrev S16x2112x2112 : Shape := ⟨3, ![16, 2112, 2112]⟩
abbrev S_ : Shape := ⟨0, ![]⟩
abbrev S2112x2112 : Shape := ⟨2, ![2112, 2112]⟩
abbrev S1x2112x2112 : Shape := ⟨3, ![1, 2112, 2112]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x64x64, .f32⟩
  | .hbm, ⟨2, _⟩ => ⟨S16x2112x64, .f32⟩
  | .hbm, ⟨3, _⟩ => ⟨S16x2112x2112, .f32⟩
  | .hbm, ⟨4, _⟩ => ⟨S_, .f32⟩
  | .hbm, ⟨5, _⟩ => ⟨S16x2112x2112, .f32⟩
  | .hbm, ⟨6, _⟩ => ⟨S16x2112x2112, .f32⟩
  | .hbm, ⟨7, _⟩ => ⟨S16x2112x2112, .f32⟩
  | .hbm, ⟨8, _⟩ => ⟨S2112x2112, .i32⟩
  | .hbm, ⟨9, _⟩ => ⟨S2112x2112, .i32⟩
  | .hbm, ⟨10, _⟩ => ⟨S_, .i32⟩
  | .hbm, ⟨11, _⟩ => ⟨S2112x2112, .i32⟩
  | .hbm, ⟨12, _⟩ => ⟨S2112x2112, .i32⟩
  | .hbm, ⟨13, _⟩ => ⟨S2112x2112, .i1⟩
  | .hbm, ⟨14, _⟩ => ⟨S2112x2112, .f32⟩
  | .hbm, ⟨15, _⟩ => ⟨S_, .f32⟩
  | .hbm, ⟨16, _⟩ => ⟨S2112x2112, .f32⟩
  | .hbm, ⟨17, _⟩ => ⟨S2112x2112, .f32⟩
  | .hbm, ⟨18, _⟩ => ⟨S1x2112x2112, .f32⟩
  | .hbm, ⟨19, _⟩ => ⟨S16x2112x2112, .f32⟩
  | .hbm, ⟨20, _⟩ => ⟨S16x2112x2112, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S16x2048x64_S16x64x64_S16x2112x64_d1 : Shape.Concatenates [S16x2048x64, S16x64x64] S16x2112x64 1
  bcast_S_S16x2112x2112 : S_.BroadcastsInDim S16x2112x2112 (![] : Fin 0 → Fin S16x2112x2112.rank)
  bcast_S_S2112x2112 : S_.BroadcastsInDim S2112x2112 (![] : Fin 0 → Fin S2112x2112.rank)
  bcast_S2112x2112_S1x2112x2112_1_2 : S2112x2112.BroadcastsInDim S1x2112x2112 (![1, 2] : Fin 2 → Fin S1x2112x2112.rank)
  bcast_S1x2112x2112_S16x2112x2112_0_1_2 : S1x2112x2112.BroadcastsInDim S16x2112x2112 (![0, 1, 2] : Fin 3 → Fin S16x2112x2112.rank)
  dot_S16x2112x64_S16x2112x64_S16x2112x2112_2_2_1_1_0_0_wf : DotDims.WF S16x2112x64 S16x2112x64 S16x2112x2112 [2] [2] [1] [1] [0] [0]

variable [Facts₀]

def dot_S16x2112x64_S16x2112x64_S16x2112x2112_2_2_1_1_0_0 : DotDims S16x2112x64 S16x2112x64 S16x2112x2112 where
  lhsContracting := [2]
  rhsContracting := [2]
  lhsNonContracting := [1]
  rhsNonContracting := [1]
  lhsBatch := [0]
  rhsBatch := [0]
  wf := dot_S16x2112x64_S16x2112x64_S16x2112x2112_2_2_1_1_0_0_wf

class Facts : Prop extends Facts₀ where

variable [Facts]
-- ==== Proof.Bits.Stage.lean ====
/-
  One grid point is a pair (b, n): batch b of 16, row tile n of 2. The kernel keeps, in a scratch buffer of
  2112 rows, the batch's node table: rows 0..2047 the spatial nodes, rows 2048..2111 the temporal nodes.
  It rebuilds the table exactly when n = 0 ("the table is filled") and reads it at every point.
  This module names the condition n = 0 over the grid, the buffers a point is handed, and the part of the
  region invariant that is the scratch buffer.
-/
import proofs.«130418_j7172595384462_2_alg».proof.Proof.Gen.Kernel.Frame
import proofs.«130418_j7172595384462_2_alg».proof.Proof.Gen.Kernel.Loops
import proofs.«130418_j7172595384462_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The table is rebuilt at this point: the second grid coordinate is zero (the printed comparison chain). -/
abbrev fills (i : grid0.Coords) : Prop :=
  (Scalar.cmpi .ne (Scalar.extui (Scalar.cmpi .eq (BitVec.ofNat 32 (i 1).val) 0#32)) 0#32) = 1#1

/-- In the linear order of the 32 points, the table is rebuilt at the even ones. -/
theorem fills_iff : ∀ t : Fin cfg0.N, fills (grid0.coords t) ↔ t.val % 2 = 0 :=
  (by decide +kernel : ∀ t : Fin grid0.N, fills (grid0.coords t) ↔ t.val % 2 = 0)

/-- The buffers point `t` is handed: the current staging buffer of each window, whole. -/
abbrev ms0 (t : Fin cfg0.N) : Memref sig .tc .vmem S1x2048x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1056x2112 .f32 := win0_2.stage (cfg0.slots t 2)
abbrev hs2 (t : Fin cfg0.N) : (ms2 t).IsWhole := hstage0_2 ((cfg0.slots t 2).cast nbuf0_2)
/-- The node table's buffer, and the views through which the table's and an output tile's contents are stated. -/
abbrev tableM : Memref sig .tc .vmem S2112x64 .bf16 := Memref.whole cc0_scratch0
abbrev tableV : View sig .tc .vmem S2112x64 .bf16 := (tableM).view
abbrev tileV : View sig .tc .vmem S1x1056x2112 .f32 := (Memref.whole cc0_stg2_0 : Memref sig .tc .vmem S1x1056x2112 .f32).view

/-- What the region owns besides the windows: the table's buffer at some contents, and the generator register. -/
theorem rest_eq (c : Dev nD) :
    (Pipeline.ΦA spec0 c : sProp 𝕄)
      = iprop(iprop((∃ d, owns (c : Thread nD τ) tableM fullShare d)) ∗ (∃ r, prngReg c r)) := by
  unfold Pipeline.ΦA; rw [scopedRest0_eq]; simp only [tableM, owns_whole]; try rfl

end Cert.Kernel.Body

end
-- ==== Proof.Bits.Fill.lean ====
/-
  The body at a point where the table is rebuilt (n = 0), run once on any whole buffers: the spatial block is
  narrowed and stored in rows 0..2047 of the table, the temporal block in rows 2048..2111, the whole table is
  read back, and the three sub-tiles of 352 rows are computed and stored into the output tile. The pieces each
  written buffer ends with are found by the run.
-/
import proofs.«130418_j7172595384462_2_alg».proof.Proof.Bits.Stage
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The run at a point that rebuilds the table: from the two input blocks `x0`, `x1`, an output tile and a table
    at anything, to the inputs as they were, the output tile with the pieces `L2` written and the table with the
    pieces `LS` written. -/
noncomputable def runFill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) :
    Σ' (L2 : List (View.Piece (Elt F) S1x1056x2112 .f32)), { LS : List (View.Piece (Elt F) S2112x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__adj_kernel i arg2 harg2 arg3 harg3 arg4 harg4 arg5 harg5) K } := by
  refine ⟨?_, ?_, fun E K => ?run⟩
  case run =>
    simp only [cc0__adj_kernel_eq_skeleton]; unfold cc0__adj_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Body

end
-- ==== Proof.Bits.Reuse.lean ====
/-
  The body at a point where the table is kept (n ≠ 0), run once on any whole buffers: the table holds what the
  point before left (`tbl`), it is read whole, and the three sub-tiles of 352 rows are computed and stored into
  the output tile. The table's buffer is handed back untouched; the output's pieces are found by the run.
-/
import proofs.«130418_j7172595384462_2_alg».proof.Proof.Bits.Stage
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The run at a point that keeps the table: from the two input blocks `x0`, `x1`, the table at `tbl` and an
    output tile at anything, to the inputs and the table as they were and the output tile with the pieces `L2`
    written. -/
noncomputable def runReuse (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : ¬fills i)
    (x0 : Vec F S1x2048x64 .f32) (x1 : Vec F S1x64x64 .f32) (tbl : Vec F S2112x64 .bf16) :
    { L2 : List (View.Piece (Elt F) S1x1056x2112 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare tbl
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare tbl) -∗ K ⟨⟩))
          ⊢ wp frame (wpE (defs₀ (F := F)) Variants.none c none) E (cc0__adj_kernel i arg2 harg2 arg3 harg3 arg4 harg4 arg5 harg5) K } := by
  refine ⟨?_, fun E K => ?run⟩
  case run =>
    simp only [cc0__adj_kernel_eq_skeleton]; unfold cc0__adj_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS

end Cert.Kernel.Body

end
-- ==== Proof.Bits.Region.lean ====
/-
  The region as a whole. After point t = (b, n) the node table holds the narrowed rows of batch b — what the even
  point 2b of the pair wrote, and the odd point 2b+1 kept — and the output tile holds the three sub-tiles the point
  stored, which tile it. With that as the proof data, the body meets its obligation at every point (the even points
  by the run that rebuilds the table, the odd ones by the run that keeps it), the launch theorem gives the run of the
  whole program, and the frame claim follows: the argument arrays are only read.
-/
import proofs.«130418_j7172595384462_2_alg».proof.Proof.Bits.Fill
import proofs.«130418_j7172595384462_2_alg».proof.Proof.Bits.Reuse
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover what they are stored into -/

/-- At a point that rebuilds the table, the three sub-tiles of 352 rows tile the output tile of 1056 rows. -/
theorem tile_cover_fill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) (y : S1x1056x2112.Idx) :
    ∃ pc ∈ (runFill c i arg2 harg2 arg3 harg3 arg4 harg4 arg5 harg5 hc x0 x1).1, y ∈ pc.1.set :=
  View.cover_of_tiledL (runFill c i arg2 harg2 arg3 harg3 arg4 harg4 arg5 harg5 hc x0 x1).1 S1x352x2112.size (by sl_kernel_rfl) y

/-- The 2048 spatial rows and the 64 temporal rows fill the table's 2112 rows (cut into blocks of 64 rows). -/
theorem table_cover_fill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) (y : S2112x64.Idx) :
    ∃ pc ∈ (runFill c i arg2 harg2 arg3 harg3 arg4 harg4 arg5 harg5 hc x0 x1).2.1, y ∈ pc.1.set :=
  View.cover_of_tiledBy (runFill c i arg2 harg2 arg3 harg3 arg4 harg4 arg5 harg5 hc x0 x1).2.1 ![64, 64] (by sl_kernel_rfl) y

/-- At a point that keeps the table, the three sub-tiles tile the output tile as well. -/
theorem tile_cover_reuse (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : ¬fills i)
    (x0 : Vec F S1x2048x64 .f32) (x1 : Vec F S1x64x64 .f32) (tbl : Vec F S2112x64 .bf16) (y : S1x1056x2112.Idx) :
    ∃ pc ∈ (runReuse c i arg2 harg2 arg3 harg3 arg4 harg4 arg5 harg5 hc x0 x1 tbl).1, y ∈ pc.1.set :=
  View.cover_of_tiledL (runReuse c i arg2 harg2 arg3 harg3 arg4 harg4 arg5 harg5 hc x0 x1 tbl).1 S1x352x2112.size (by sl_kernel_rfl) y

/-! ## What a run leaves -/

/-- The output tile after a run that rebuilds the table: its pieces read back. -/
def tileFill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i) (x0 : Vec F S1x2048x64 .f32) (x1 : Vec F S1x64x64 .f32) : Vec F S1x1056x2112 .f32 :=
  tileV.read (Elt F) (tileV.writes (Elt F) tileV.junk (runFill c i arg2 harg2 arg3 harg3 arg4 harg4 arg5 harg5 hc x0 x1).1)

/-- The table after a run that rebuilds it: its pieces read back. -/
def tableFill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i) (x0 : Vec F S1x2048x64 .f32) (x1 : Vec F S1x64x64 .f32) : Vec F S2112x64 .bf16 :=
  tableV.read (Elt F) (tableV.writes (Elt F) tableV.junk (runFill c i arg2 harg2 arg3 harg3 arg4 harg4 arg5 harg5 hc x0 x1).2.1)

/-- The output tile after a run that keeps the table `tbl`: its pieces read back. -/
def tileReuse (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : ¬fills i) (x0 : Vec F S1x2048x64 .f32) (x1 : Vec F S1x64x64 .f32) (tbl : Vec F S2112x64 .bf16) : Vec F S1x1056x2112 .f32 :=
  tileV.read (Elt F) (tileV.writes (Elt F) tileV.junk (runReuse c i arg2 harg2 arg3 harg3 arg4 harg4 arg5 harg5 hc x0 x1 tbl).1)

/-! ## Point by point -/

/-- The table an even point `s` writes, from the point's own input blocks. -/
def tablePt (c : Dev nD) (s : Fin cfg0.N) (hs : fills (grid0.coords s)) : Vec F S2112x64 .bf16 :=
  tableFill c (grid0.coords s) (ms0 s) (hs0 s) (ms1 s) (hs1 s) (ms2 s) (hs2 s) tableM (Memref.isWhole_whole _) hs (iblk m c 0 s) (iblk m c 1 s)

theorem tablePt_congr (c : Dev nD) (s t : Fin cfg0.N) (h : s = t) (hs : fills (grid0.coords s)) (ht : fills (grid0.coords t)) :
    tablePt m c s hs = tablePt m c t ht := by subst h; rfl

/-- The even point of the pair that position `n` lies in. -/
abbrev pairBase (n : ℕ) (hn : n < cfg0.N) : Fin cfg0.N := ⟨n - n % 2, Nat.lt_of_le_of_lt (Nat.sub_le _ _) hn⟩

theorem pairBase_fills (n : ℕ) (hn : n < cfg0.N) : fills (grid0.coords (pairBase n hn)) :=
  (fills_iff (pairBase n hn)).mpr (by show (n - n % 2) % 2 = 0; omega)

/-- The table after position `n`: what the even point of its pair wrote. -/
def tableAt (c : Dev nD) (n : ℕ) (hn : n < cfg0.N) : Vec F S2112x64 .bf16 :=
  tablePt m c (pairBase n hn) (pairBase_fills n hn)

/-- After an even point, the table is what that point wrote. -/
theorem tableAt_even (c : Dev nD) (t : Fin cfg0.N) (h0 : t.val % 2 = 0) :
    tableAt m c t.val t.isLt = tablePt m c t ((fills_iff t).mpr h0) :=
  tablePt_congr m c _ _ (Fin.ext (by show t.val - t.val % 2 = t.val; omega)) _ _

/-- After an odd point, the table is what it was after the point before. -/
theorem tableAt_odd (c : Dev nD) (t : Fin cfg0.N) (h0 : ¬t.val % 2 = 0) :
    tableAt m c t.val t.isLt = tableAt m c (t.val - 1) (Nat.lt_of_le_of_lt (Nat.sub_le _ _) t.isLt) :=
  tablePt_congr m c _ _ (Fin.ext (by show t.val - t.val % 2 = (t.val - 1) - (t.val - 1) % 2; omega)) _ _

/-- The output tile after point `t`. -/
def tileAt (c : Dev nD) (t : Fin cfg0.N) : Vec F S1x1056x2112 .f32 :=
  if h : t.val % 2 = 0 then
    tileFill c (grid0.coords t) (ms0 t) (hs0 t) (ms1 t) (hs1 t) (ms2 t) (hs2 t) tableM (Memref.isWhole_whole _) ((fills_iff t).mpr h) (iblk m c 0 t) (iblk m c 1 t)
  else
    tileReuse c (grid0.coords t) (ms0 t) (hs0 t) (ms1 t) (hs1 t) (ms2 t) (hs2 t) tableM (Memref.isWhole_whole _) (fun hf => h ((fills_iff t).mp hf)) (iblk m c 0 t) (iblk m c 1 t)
      (tableAt m c (t.val - 1) (Nat.lt_of_le_of_lt (Nat.sub_le _ _) t.isLt))

theorem tileAt_even (c : Dev nD) (t : Fin cfg0.N) (h : t.val % 2 = 0) :
    tileAt m c t = tileFill c (grid0.coords t) (ms0 t) (hs0 t) (ms1 t) (hs1 t) (ms2 t) (hs2 t) tableM (Memref.isWhole_whole _) ((fills_iff t).mpr h) (iblk m c 0 t) (iblk m c 1 t) := dif_pos h

theorem tileAt_odd (c : Dev nD) (t : Fin cfg0.N) (h : ¬t.val % 2 = 0) :
    tileAt m c t = tileReuse c (grid0.coords t) (ms0 t) (hs0 t) (ms1 t) (hs1 t) (ms2 t) (hs2 t) tableM (Memref.isWhole_whole _) (fun hf => h ((fills_iff t).mp hf)) (iblk m c 0 t) (iblk m c 1 t)
      (tableAt m c (t.val - 1) (Nat.lt_of_le_of_lt (Nat.sub_le _ _) t.isLt)) := dif_neg h

/-- The region's invariant before position `n`: at the start the table's buffer at anything; afterwards at the table
    of the position before. -/
def PhiS (c : Dev nD) : (n : ℕ) → n ≤ cfg0.N → sProp 𝕄
  | 0, _ => Pipeline.ΦA spec0 c
  | n + 1, hn => iprop(iprop(owns (c : Thread nD τ) tableM fullShare (tableAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) tableM fullShare (tableAt m c n hn)) ∗ (∃ r, prngReg c r)) := rfl

theorem PhiS_pos (c : Dev nD) (n : ℕ) (h : n ≤ cfg0.N) (hz : n ≠ 0) :
    PhiS m c n h = iprop(iprop(owns (c : Thread nD τ) tableM fullShare (tableAt m c (n - 1) (by omega))) ∗ (∃ r, prngReg c r)) := by
  cases n with
  | zero => exact absurd rfl hz
  | succ n => rfl

/-! ## The proof data -/

/-- On core `c`: the arrays as the region finds them; after the body at point `t` each input's buffer at its block
    and the output's at `tileAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tileAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; an even point rebuilds the table from them and
    leaves it at `tablePt`, an odd point finds the table of the point before and leaves it; either way the output tile
    ends at its pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  by_cases h0 : t.val % 2 = 0
  · rw [tileAt_even m c t h0, tableAt_even m c t h0]
    unfold tablePt tileFill tableFill; (try dsimp only)
    by_cases hz : t.val = 0
    · rw [PhiS_castSucc m c t, PhiS_zero m c _ _ hz, rest_eq]
      iintro ⟨⟨HS, Hg⟩, Ho, ⟨%d0, H0⟩, ⟨%d1, H1⟩, ⟨%d2, H2⟩⟩
      iapply ((runFill c (grid0.coords t) _ _ _ _ _ _ _ _ ((fills_iff t).mpr h0) (iblk m c 0 t) (iblk m c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (table_cover_fill c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (tile_cover_fill c _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩⟩
      iapply ((runFill c (grid0.coords t) _ _ _ _ _ _ _ _ ((fills_iff t).mpr h0) (iblk m c 0 t) (iblk m c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (table_cover_fill c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (tile_cover_fill c _ _ _ _ _ _ _ _ _ _ _ _)
  · have hz : t.val ≠ 0 := fun hz => h0 (by rw [hz])
    rw [tileAt_odd m c t h0, tableAt_odd m c t h0]
    unfold tileReuse; (try dsimp only)
    rw [PhiS_castSucc m c t, PhiS_pos m c _ _ hz]
    iintro ⟨⟨HS, Hg⟩, Ho, ⟨%d0, H0⟩, ⟨%d1, H1⟩, ⟨%d2, H2⟩⟩
    iapply ((runReuse c (grid0.coords t) _ _ _ _ _ _ _ _ (fun hf => h0 ((fills_iff t).mp hf)) (iblk m c 0 t) (iblk m c 1 t) _).2 Set.univ _)
    isplitl [H0]; · iexact H0
    isplitl [H1]; · iexact H1
    isplitl [H2]; · iexists _; iexact H2
    isplitl [HS]; · iexact HS
    iintro ⟨H0, H1, ⟨%e2, H2⟩, HS⟩
    isplitl [HS Hg]
    · isplitl [HS]; · iexact HS
      iexact Hg
    isplitl [Ho]; · iexact Ho
    isplitl [H0]; · iexact H0
    isplitl [H1]; · iexact H1
    unfold owns; iexists _; isplitr
    swap; · iexact H2
    ipureintro; exact View.read_writes_of_cover _ _ _ _ _ (tile_cover_reuse c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the table's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), rest_eq]
  iintro ⟨HS, Hg⟩
  isplitl [HS]
  · iexists _; iexact HS
  iexact Hg

/-! ## The run and the frame -/

set_option backward.isDefEq.respectTransparency.types false in
/-- Every weakly fair execution of the program terminates, without a fault, with every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame claim of this program, at any number format. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Ideal.Stage.lean ====
/-
  One grid point is a pair (b, n): batch b of 16, row tile n of 2. The kernel keeps, in a scratch buffer of
  2112 rows, the batch's node table: rows 0..2047 the spatial nodes, rows 2048..2111 the temporal nodes.
  It rebuilds the table exactly when n = 0 ("the table is filled") and reads it at every point.
  This module names the condition n = 0 over the grid, the buffers a point is handed, and the part of the
  region invariant that is the scratch buffer.
-/
import proofs.«130418_j7172595384462_2_alg».proof.Proof.Gen.KernelIdeal.Frame
import proofs.«130418_j7172595384462_2_alg».proof.Proof.Gen.KernelIdeal.Loops
import proofs.«130418_j7172595384462_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The table is rebuilt at this point: the second grid coordinate is zero (the printed comparison chain). -/
abbrev fills (i : grid0.Coords) : Prop :=
  (Scalar.cmpi .ne (Scalar.extui (Scalar.cmpi .eq (BitVec.ofNat 32 (i 1).val) 0#32)) 0#32) = 1#1

/-- In the linear order of the 32 points, the table is rebuilt at the even ones. -/
theorem fills_iff : ∀ t : Fin cfg0.N, fills (grid0.coords t) ↔ t.val % 2 = 0 :=
  (by decide +kernel : ∀ t : Fin grid0.N, fills (grid0.coords t) ↔ t.val % 2 = 0)

/-- The buffers point `t` is handed: the current staging buffer of each window, whole. -/
abbrev ms0 (t : Fin cfg0.N) : Memref sig .tc .vmem S1x2048x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1056x2112 .f32 := win0_2.stage (cfg0.slots t 2)
abbrev hs2 (t : Fin cfg0.N) : (ms2 t).IsWhole := hstage0_2 ((cfg0.slots t 2).cast nbuf0_2)
/-- The node table's buffer, and the views through which the table's and an output tile's contents are stated. -/
abbrev tableM : Memref sig .tc .vmem S2112x64 .bf16 := Memref.whole cc0_scratch0
abbrev tableV : View sig .tc .vmem S2112x64 .bf16 := (tableM).view
abbrev tileV : View sig .tc .vmem S1x1056x2112 .f32 := (Memref.whole cc0_stg2_0 : Memref sig .tc .vmem S1x1056x2112 .f32).view

/-- What the region owns besides the windows: the table's buffer at some contents, and the generator register. -/
theorem rest_eq (c : Dev nD) :
    (Pipeline.ΦA spec0 c : sProp 𝕄)
      = iprop(iprop((∃ d, owns (c : Thread nD τ) tableM fullShare d)) ∗ (∃ r, prngReg c r)) := by
  unfold Pipeline.ΦA; rw [scopedRest0_eq]; simp only [tableM, owns_whole]; try rfl

end Cert.KernelIdeal.Body

end
-- ==== Proof.Ideal.Fill.lean ====
/-
  The body at a point where the table is rebuilt (n = 0), run once on any whole buffers: the spatial block is
  narrowed and stored in rows 0..2047 of the table, the temporal block in rows 2048..2111, the whole table is
  read back, and the three sub-tiles of 352 rows are computed and stored into the output tile. The pieces each
  written buffer ends with are found by the run.
-/
import proofs.«130418_j7172595384462_2_alg».proof.Proof.Ideal.Stage
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The run at a point that rebuilds the table: from the two input blocks `x0`, `x1`, an output tile and a table
    at anything, to the inputs as they were, the output tile with the pieces `L2` written and the table with the
    pieces `LS` written. -/
noncomputable def runFill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) :
    Σ' (L2 : List (View.Piece (Elt F) S1x1056x2112 .f32)), { LS : List (View.Piece (Elt F) S2112x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__adj_kernel i arg2 harg2 arg3 harg3 arg4 harg4 arg5 harg5) K } := by
  refine ⟨?_, ?_, fun E K => ?run⟩
  case run =>
    simp only [cc0__adj_kernel_eq_skeleton]; unfold cc0__adj_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Body

end
-- ==== Proof.Ideal.Reuse.lean ====
/-
  The body at a point where the table is kept (n ≠ 0), run once on any whole buffers: the table holds what the
  point before left (`tbl`), it is read whole, and the three sub-tiles of 352 rows are computed and stored into
  the output tile. The table's buffer is handed back untouched; the output's pieces are found by the run.
-/
import proofs.«130418_j7172595384462_2_alg».proof.Proof.Ideal.Stage
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The run at a point that keeps the table: from the two input blocks `x0`, `x1`, the table at `tbl` and an
    output tile at anything, to the inputs and the table as they were and the output tile with the pieces `L2`
    written. -/
noncomputable def runReuse (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : ¬fills i)
    (x0 : Vec F S1x2048x64 .f32) (x1 : Vec F S1x64x64 .f32) (tbl : Vec F S2112x64 .bf16) :
    { L2 : List (View.Piece (Elt F) S1x1056x2112 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare tbl
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare tbl) -∗ K ⟨⟩))
          ⊢ wp frame (wpE (defs₀ (F := F)) Variants.none c none) E (cc0__adj_kernel i arg2 harg2 arg3 harg3 arg4 harg4 arg5 harg5) K } := by
  refine ⟨?_, fun E K => ?run⟩
  case run =>
    simp only [cc0__adj_kernel_eq_skeleton]; unfold cc0__adj_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS

end Cert.KernelIdeal.Body

end
-- ==== Proof.Ideal.Region.lean ====
/-
  The region as a whole. After point t = (b, n) the node table holds the narrowed rows of batch b — what the even
  point 2b of the pair wrote, and the odd point 2b+1 kept — and the output tile holds the three sub-tiles the point
  stored, which tile it. With that as the proof data, the body meets its obligation at every point (the even points
  by the run that rebuilds the table, the odd ones by the run that keeps it), the launch theorem gives the run of the
  whole program, and the frame claim follows: the argument arrays are only read.
-/
import proofs.«130418_j7172595384462_2_alg».proof.Proof.Ideal.Fill
import proofs.«130418_j7172595384462_2_alg».proof.Proof.Ideal.Reuse
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover what they are stored into -/

/-- At a point that rebuilds the table, the three sub-tiles of 352 rows tile the output tile of 1056 rows. -/
theorem tile_cover_fill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) (y : S1x1056x2112.Idx) :
    ∃ pc ∈ (runFill c i arg2 harg2 arg3 harg3 arg4 harg4 arg5 harg5 hc x0 x1).1, y ∈ pc.1.set :=
  View.cover_of_tiledL (runFill c i arg2 harg2 arg3 harg3 arg4 harg4 arg5 harg5 hc x0 x1).1 S1x352x2112.size (by sl_kernel_rfl) y

/-- The 2048 spatial rows and the 64 temporal rows fill the table's 2112 rows (cut into blocks of 64 rows). -/
theorem table_cover_fill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) (y : S2112x64.Idx) :
    ∃ pc ∈ (runFill c i arg2 harg2 arg3 harg3 arg4 harg4 arg5 harg5 hc x0 x1).2.1, y ∈ pc.1.set :=
  View.cover_of_tiledBy (runFill c i arg2 harg2 arg3 harg3 arg4 harg4 arg5 harg5 hc x0 x1).2.1 ![64, 64] (by sl_kernel_rfl) y

/-- At a point that keeps the table, the three sub-tiles tile the output tile as well. -/
theorem tile_cover_reuse (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : ¬fills i)
    (x0 : Vec F S1x2048x64 .f32) (x1 : Vec F S1x64x64 .f32) (tbl : Vec F S2112x64 .bf16) (y : S1x1056x2112.Idx) :
    ∃ pc ∈ (runReuse c i arg2 harg2 arg3 harg3 arg4 harg4 arg5 harg5 hc x0 x1 tbl).1, y ∈ pc.1.set :=
  View.cover_of_tiledL (runReuse c i arg2 harg2 arg3 harg3 arg4 harg4 arg5 harg5 hc x0 x1 tbl).1 S1x352x2112.size (by sl_kernel_rfl) y

/-! ## What a run leaves -/

/-- The output tile after a run that rebuilds the table: its pieces read back. -/
def tileFill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i) (x0 : Vec F S1x2048x64 .f32) (x1 : Vec F S1x64x64 .f32) : Vec F S1x1056x2112 .f32 :=
  tileV.read (Elt F) (tileV.writes (Elt F) tileV.junk (runFill c i arg2 harg2 arg3 harg3 arg4 harg4 arg5 harg5 hc x0 x1).1)

/-- The table after a run that rebuilds it: its pieces read back. -/
def tableFill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i) (x0 : Vec F S1x2048x64 .f32) (x1 : Vec F S1x64x64 .f32) : Vec F S2112x64 .bf16 :=
  tableV.read (Elt F) (tableV.writes (Elt F) tableV.junk (runFill c i arg2 harg2 arg3 harg3 arg4 harg4 arg5 harg5 hc x0 x1).2.1)

/-- The output tile after a run that keeps the table `tbl`: its pieces read back. -/
def tileReuse (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : ¬fills i) (x0 : Vec F S1x2048x64 .f32) (x1 : Vec F S1x64x64 .f32) (tbl : Vec F S2112x64 .bf16) : Vec F S1x1056x2112 .f32 :=
  tileV.read (Elt F) (tileV.writes (Elt F) tileV.junk (runReuse c i arg2 harg2 arg3 harg3 arg4 harg4 arg5 harg5 hc x0 x1 tbl).1)

/-! ## Point by point -/

/-- The table an even point `s` writes, from the point's own input blocks. -/
def tablePt (c : Dev nD) (s : Fin cfg0.N) (hs : fills (grid0.coords s)) : Vec F S2112x64 .bf16 :=
  tableFill c (grid0.coords s) (ms0 s) (hs0 s) (ms1 s) (hs1 s) (ms2 s) (hs2 s) tableM (Memref.isWhole_whole _) hs (iblk m c 0 s) (iblk m c 1 s)

theorem tablePt_congr (c : Dev nD) (s t : Fin cfg0.N) (h : s = t) (hs : fills (grid0.coords s)) (ht : fills (grid0.coords t)) :
    tablePt m c s hs = tablePt m c t ht := by subst h; rfl

/-- The even point of the pair that position `n` lies in. -/
abbrev pairBase (n : ℕ) (hn : n < cfg0.N) : Fin cfg0.N := ⟨n - n % 2, Nat.lt_of_le_of_lt (Nat.sub_le _ _) hn⟩

theorem pairBase_fills (n : ℕ) (hn : n < cfg0.N) : fills (grid0.coords (pairBase n hn)) :=
  (fills_iff (pairBase n hn)).mpr (by show (n - n % 2) % 2 = 0; omega)

/-- The table after position `n`: what the even point of its pair wrote. -/
def tableAt (c : Dev nD) (n : ℕ) (hn : n < cfg0.N) : Vec F S2112x64 .bf16 :=
  tablePt m c (pairBase n hn) (pairBase_fills n hn)

/-- After an even point, the table is what that point wrote. -/
theorem tableAt_even (c : Dev nD) (t : Fin cfg0.N) (h0 : t.val % 2 = 0) :
    tableAt m c t.val t.isLt = tablePt m c t ((fills_iff t).mpr h0) :=
  tablePt_congr m c _ _ (Fin.ext (by show t.val - t.val % 2 = t.val; omega)) _ _

/-- After an odd point, the table is what it was after the point before. -/
theorem tableAt_odd (c : Dev nD) (t : Fin cfg0.N) (h0 : ¬t.val % 2 = 0) :
    tableAt m c t.val t.isLt = tableAt m c (t.val - 1) (Nat.lt_of_le_of_lt (Nat.sub_le _ _) t.isLt) :=
  tablePt_congr m c _ _ (Fin.ext (by show t.val - t.val % 2 = (t.val - 1) - (t.val - 1) % 2; omega)) _ _

/-- The output tile after point `t`. -/
def tileAt (c : Dev nD) (t : Fin cfg0.N) : Vec F S1x1056x2112 .f32 :=
  if h : t.val % 2 = 0 then
    tileFill c (grid0.coords t) (ms0 t) (hs0 t) (ms1 t) (hs1 t) (ms2 t) (hs2 t) tableM (Memref.isWhole_whole _) ((fills_iff t).mpr h) (iblk m c 0 t) (iblk m c 1 t)
  else
    tileReuse c (grid0.coords t) (ms0 t) (hs0 t) (ms1 t) (hs1 t) (ms2 t) (hs2 t) tableM (Memref.isWhole_whole _) (fun hf => h ((fills_iff t).mp hf)) (iblk m c 0 t) (iblk m c 1 t)
      (tableAt m c (t.val - 1) (Nat.lt_of_le_of_lt (Nat.sub_le _ _) t.isLt))

theorem tileAt_even (c : Dev nD) (t : Fin cfg0.N) (h : t.val % 2 = 0) :
    tileAt m c t = tileFill c (grid0.coords t) (ms0 t) (hs0 t) (ms1 t) (hs1 t) (ms2 t) (hs2 t) tableM (Memref.isWhole_whole _) ((fills_iff t).mpr h) (iblk m c 0 t) (iblk m c 1 t) := dif_pos h

theorem tileAt_odd (c : Dev nD) (t : Fin cfg0.N) (h : ¬t.val % 2 = 0) :
    tileAt m c t = tileReuse c (grid0.coords t) (ms0 t) (hs0 t) (ms1 t) (hs1 t) (ms2 t) (hs2 t) tableM (Memref.isWhole_whole _) (fun hf => h ((fills_iff t).mp hf)) (iblk m c 0 t) (iblk m c 1 t)
      (tableAt m c (t.val - 1) (Nat.lt_of_le_of_lt (Nat.sub_le _ _) t.isLt)) := dif_neg h

/-- The region's invariant before position `n`: at the start the table's buffer at anything; afterwards at the table
    of the position before. -/
def PhiS (c : Dev nD) : (n : ℕ) → n ≤ cfg0.N → sProp 𝕄
  | 0, _ => Pipeline.ΦA spec0 c
  | n + 1, hn => iprop(iprop(owns (c : Thread nD τ) tableM fullShare (tableAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) tableM fullShare (tableAt m c n hn)) ∗ (∃ r, prngReg c r)) := rfl

theorem PhiS_pos (c : Dev nD) (n : ℕ) (h : n ≤ cfg0.N) (hz : n ≠ 0) :
    PhiS m c n h = iprop(iprop(owns (c : Thread nD τ) tableM fullShare (tableAt m c (n - 1) (by omega))) ∗ (∃ r, prngReg c r)) := by
  cases n with
  | zero => exact absurd rfl hz
  | succ n => rfl

/-! ## The proof data -/

/-- On core `c`: the arrays as the region finds them; after the body at point `t` each input's buffer at its block
    and the output's at `tileAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tileAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; an even point rebuilds the table from them and
    leaves it at `tablePt`, an odd point finds the table of the point before and leaves it; either way the output tile
    ends at its pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  by_cases h0 : t.val % 2 = 0
  · rw [tileAt_even m c t h0, tableAt_even m c t h0]
    unfold tablePt tileFill tableFill; (try dsimp only)
    by_cases hz : t.val = 0
    · rw [PhiS_castSucc m c t, PhiS_zero m c _ _ hz, rest_eq]
      iintro ⟨⟨HS, Hg⟩, Ho, ⟨%d0, H0⟩, ⟨%d1, H1⟩, ⟨%d2, H2⟩⟩
      iapply ((runFill c (grid0.coords t) _ _ _ _ _ _ _ _ ((fills_iff t).mpr h0) (iblk m c 0 t) (iblk m c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (table_cover_fill c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (tile_cover_fill c _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩⟩
      iapply ((runFill c (grid0.coords t) _ _ _ _ _ _ _ _ ((fills_iff t).mpr h0) (iblk m c 0 t) (iblk m c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (table_cover_fill c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (tile_cover_fill c _ _ _ _ _ _ _ _ _ _ _ _)
  · have hz : t.val ≠ 0 := fun hz => h0 (by rw [hz])
    rw [tileAt_odd m c t h0, tableAt_odd m c t h0]
    unfold tileReuse; (try dsimp only)
    rw [PhiS_castSucc m c t, PhiS_pos m c _ _ hz]
    iintro ⟨⟨HS, Hg⟩, Ho, ⟨%d0, H0⟩, ⟨%d1, H1⟩, ⟨%d2, H2⟩⟩
    iapply ((runReuse c (grid0.coords t) _ _ _ _ _ _ _ _ (fun hf => h0 ((fills_iff t).mp hf)) (iblk m c 0 t) (iblk m c 1 t) _).2 Set.univ _)
    isplitl [H0]; · iexact H0
    isplitl [H1]; · iexact H1
    isplitl [H2]; · iexists _; iexact H2
    isplitl [HS]; · iexact HS
    iintro ⟨H0, H1, ⟨%e2, H2⟩, HS⟩
    isplitl [HS Hg]
    · isplitl [HS]; · iexact HS
      iexact Hg
    isplitl [Ho]; · iexact Ho
    isplitl [H0]; · iexact H0
    isplitl [H1]; · iexact H1
    unfold owns; iexists _; isplitr
    swap; · iexact H2
    ipureintro; exact View.read_writes_of_cover _ _ _ _ _ (tile_cover_reuse c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the table's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), rest_eq]
  iintro ⟨HS, Hg⟩
  isplitl [HS]
  · iexists _; iexact HS
  iexact Hg

/-! ## The run and the frame -/

set_option backward.isDefEq.respectTransparency.types false in
/-- Every weakly fair execution of the program terminates, without a fault, with every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame claim of this program, at any number format. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Ideal.Pieces.lean ====
/-
  What the runs found, in closed form. The table a rebuilding point leaves is the canon of two stores: the narrowed
  temporal block at rows 2048..2111 over the narrowed spatial block at rows 0..2047. Every piece of the output tile is
  one of three sub-tiles: sub-tile k is stored at rows 352k..352k+351 of the tile and is the body's arithmetic of the
  whole table and of the 352 table rows the point's row offset selects.
-/
import proofs.«130418_j7172595384462_2_alg».proof.Proof.Ideal.Region
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- A load of the whole table after stores `L` into it reads what the stores left. -/
theorem readCov_whole (v : View sig .tc .vmem S2112x64 .bf16) (L : List (View.Piece (Elt F) S2112x64 .bf16))
    (inb : ∀ a, (![0, 0] : Fin 2 → Nat) a + (![2112, 64] : Fin 2 → Nat) a ≤ S2112x64.size a) :
    v.readCov L (Rect.unit (s := S2112x64) ![0, 0] ![2112, 64] inb).toLoadRect = View.canon L := by
  rw [View.readCov_eq_canon']
  exact View.ld_unit_zero (S := S2112x64) zeros2 inb (View.canon L)

/-- The two stores that build the table, last first. -/
def tablePieces (x0 : Vec F S1x2048x64 .f32) (x1 : Vec F S1x64x64 .f32) : List (View.Piece (Elt F) S2112x64 .bf16) :=
  [⟨Rect.unit (s := S2112x64) ![2048, 0] S64x64.size inb_S2112x64_S64x64_2048_0, k0_pay2 x1⟩,
   ⟨Rect.unit (s := S2112x64) ![0, 0] S2048x64.size inb_S2112x64_S2048x64_0_0, k0_pay1 x0⟩]

/-- The table built from a spatial block `x0` and a temporal block `x1`. -/
def tableOf (x0 : Vec F S1x2048x64 .f32) (x1 : Vec F S1x64x64 .f32) : Vec F S2112x64 .bf16 :=
  View.canon (tablePieces x0 x1)

/-- Sub-tile `k` of a point's output tile, from the table `T`: where it is stored and what is stored. -/
def subTile (i : grid0.Coords) (T : Vec F S2112x64 .bf16) (k : Fin k0_t1_loop.trips) : View.Piece (Elt F) S1x1056x2112 .f32 :=
  ⟨Rect.unit (s := S1x1056x2112) (k0_off2 k) S1x352x2112.size (k0_off2_inb k),
    k0_pay3 i T k (View.ld T (Rect.unit (s := S2112x64) (k0_off1 i k) S352x64.size (k0_off1_inb i k)))⟩

/-- One trip of the loop stores one piece: at the trip's rows, the arithmetic of the table value `v5` it was handed
    and of the rows it loads from the table's buffer. -/
theorem trip_piece (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole)
    (v5 : Vec F S2112x64 .bf16) (X : BufTy.Contents (Elt F) arg5.view.ty) (k : Fin k0_t1_loop.trips) :
    tripL_k0_t1 (F := F) Variants.none c none i arg2 harg2 arg3 harg3 arg4 harg4 arg5 harg5 v5 X k
      = [⟨Rect.unit (s := S1x1056x2112) (k0_off2 k) S1x352x2112.size (k0_off2_inb k),
          k0_pay3 i v5 k (View.readAt (Elt F) arg5.view (Rect.unit (s := S2112x64) (k0_off1 i k) S352x64.size (k0_off1_inb i k)).toLoadRect X)⟩] := by
  unfold tripL_k0_t1 trip_k0_t1
  rfl

/-- So every piece the trips before `n` stored is some trip's piece. -/
theorem mem_trips (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole)
    (v5 : Vec F S2112x64 .bf16) (X : BufTy.Contents (Elt F) arg5.view.ty) :
    ∀ (n : ℕ), n ≤ k0_t1_loop.trips → ∀ p ∈ pb_k0_t1 (F := F) Variants.none c none i arg2 harg2 arg3 harg3 arg4 harg4 arg5 harg5 v5 X n,
      ∃ k : Fin k0_t1_loop.trips, p = ⟨Rect.unit (s := S1x1056x2112) (k0_off2 k) S1x352x2112.size (k0_off2_inb k),
          k0_pay3 i v5 k (View.readAt (Elt F) arg5.view (Rect.unit (s := S2112x64) (k0_off1 i k) S352x64.size (k0_off1_inb i k)).toLoadRect X)⟩
  | 0, _, p, hp => by rw [pb_k0_t1.eq_1] at hp; exact absurd hp (List.not_mem_nil)
  | n + 1, hn, p, hp => by
    have e := pb_k0_t1_succ (F := F) Variants.none c none i arg2 harg2 arg3 harg3 arg4 harg4 arg5 harg5 v5 X ⟨n, hn⟩
    rw [show ((⟨n, hn⟩ : Fin k0_t1_loop.trips).val + 1) = n + 1 from rfl] at e
    rw [e, trip_piece] at hp
    rcases List.mem_append.mp hp with h | h
    · exact ⟨⟨n, hn⟩, List.mem_singleton.mp h⟩
    · exact mem_trips c i arg2 harg2 arg3 harg3 arg4 harg4 arg5 harg5 v5 X n (Nat.le_of_succ_le hn) p h

/-- The table a rebuilding run leaves is `tableOf` of the two blocks. -/
theorem tableFill_eq (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) :
    tableFill c i arg2 harg2 arg3 harg3 arg4 harg4 arg5 harg5 hc x0 x1 = tableOf x0 x1 := by
  unfold tableFill tableOf tablePieces
  rw [View.read_writes_junk_eq_canon]
  unfold runFill
  dsimp only
  sl_unfold_words
  simp only [View.readAt_eq_ld, harg2.read_unread, harg3.read_unread, View.ld_unit_zero (S := S1x2048x64) zeros3,
    View.ld_unit_zero (S := S1x64x64) zeros3]

/-- Every piece of the output tile of a run that keeps the table `tbl` is a sub-tile from `tbl`. -/
theorem mem_tile_reuse (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : ¬fills i)
    (x0 : Vec F S1x2048x64 .f32) (x1 : Vec F S1x64x64 .f32) (tbl : Vec F S2112x64 .bf16) :
    ∀ p ∈ (runReuse c i arg2 harg2 arg3 harg3 arg4 harg4 arg5 harg5 hc x0 x1 tbl).1, ∃ k, p = subTile i tbl k := by
  intro p hp
  unfold runReuse at hp
  dsimp only at hp
  obtain ⟨k, rfl⟩ := mem_trips c i arg2 harg2 arg3 harg3 arg4 harg4 arg5 harg5 _ _ _ (Nat.le_refl _) p hp
  refine ⟨k, ?_⟩
  unfold subTile
  simp only [View.readAt_eq_ld, harg5.read_unread, View.ld_unit_zero (S := S2112x64) zeros2]

/-- Every piece of the output tile of a rebuilding run is a sub-tile from the table it built. -/
theorem mem_tile_fill (c : Dev nD) (i : grid0.Coords) (arg2 : Memref sig .tc .vmem S1x2048x64 .f32) (harg2 : arg2.IsWhole) (arg3 : Memref sig .tc .vmem S1x64x64 .f32) (harg3 : arg3.IsWhole) (arg4 : Memref sig .tc .vmem S1x1056x2112 .f32) (harg4 : arg4.IsWhole) (arg5 : Memref sig .tc .vmem S2112x64 .bf16) (harg5 : arg5.IsWhole) (hc : fills i)
    (x0 : Vec F S1x2048x64 .f32) (x1 : Vec F S1x64x64 .f32) :
    ∀ p ∈ (runFill c i arg2 harg2 arg3 harg3 arg4 harg4 arg5 harg5 hc x0 x1).1, ∃ k, p = subTile i (tableOf x0 x1) k := by
  intro p hp
  unfold runFill at hp
  dsimp only at hp
  revert hp
  sl_unfold_words
  intro hp
  obtain ⟨k, rfl⟩ := mem_trips c i arg2 harg2 arg3 harg3 arg4 harg4 arg5 harg5 _ _ _ (Nat.le_refl _) p hp
  refine ⟨k, ?_⟩
  unfold subTile tableOf tablePieces
  simp only [View.readAt_eq_ld, harg2.read_unread, harg3.read_unread, View.ld_unit_zero (S := S1x2048x64) zeros3,
    View.ld_unit_zero (S := S1x64x64) zeros3, View.read_writes_junk_eq_canon, readCov_whole]

end Cert.KernelIdeal.Body

end
-- ==== Proof.Ideal.Nodes.lean ====
/-
  The node table, row by row, over the extended reals. Narrowing a float is the identity there, so the table a
  rebuilding point leaves holds at row ρ < 2048 the spatial node ρ of the point's batch and at row ρ ≥ 2048 the temporal
  node ρ - 2048: row ρ of the batch's joined node list, which is what the reference's concatenation holds at
  (batch, ρ). Point t = (b, n) is in batch b = t / 2, and its two input blocks are that batch's rows of the two argument
  arrays.
-/
import proofs.«130418_j7172595384462_2_alg».proof.Proof.Ideal.Pieces
import proofs.«130418_j7172595384462_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Idealize.ShloMosaic Idealize.ShloMosaic.TcCoe Idealize.ShloMosaic.ValueIdx
open Idealize.SL Idealize.SL.Sem
open Cert.KernelIdeal Cert.KernelIdeal.Gen Cert.KernelIdeal.Body

/-- The reference's joined node list at a spatial row is the first argument there. -/
theorem joined_spatial (x0 : (⟨Cert.ReferenceIdeal.S16x2048x64, .f32⟩ : BufTy).Contents (Elt Ideal)) (x1 : (⟨Cert.ReferenceIdeal.S16x64x64, .f32⟩ : BufTy).Contents (Elt Ideal))
    (b : Fin 16) (ρ : Fin 2112) (k : Fin 64) (h : ρ.val < 2048) :
    Cert.ReferenceIdeal.Read.val_main_v0 (F := Ideal) x0 x1 (ix3 b ρ k) = x0 (ix3 b ⟨ρ.val, h⟩ k) := by
  unfold Cert.ReferenceIdeal.Read.val_main_v0
  exact concatenate_pair_apply_left (1 : Fin 3) x0 x1 _ (ix3 b ρ k) rfl (ix3 b ⟨ρ.val, h⟩ k)
    (fun bb => match bb with | ⟨0, _⟩ => rfl | ⟨1, _⟩ => rfl | ⟨2, _⟩ => rfl)

/-- At a temporal row it is the second argument, 2048 rows up. -/
theorem joined_temporal (x0 : (⟨Cert.ReferenceIdeal.S16x2048x64, .f32⟩ : BufTy).Contents (Elt Ideal)) (x1 : (⟨Cert.ReferenceIdeal.S16x64x64, .f32⟩ : BufTy).Contents (Elt Ideal))
    (b : Fin 16) (ρ : Fin 2112) (k : Fin 64) (h : 2048 ≤ ρ.val) :
    Cert.ReferenceIdeal.Read.val_main_v0 (F := Ideal) x0 x1 (ix3 b ρ k) = x1 (ix3 b ⟨ρ.val - 2048, by have := ρ.isLt; omega⟩ k) := by
  unfold Cert.ReferenceIdeal.Read.val_main_v0
  exact concatenate_pair_apply_right (1 : Fin 3) x0 x1 _ (ix3 b ρ k) rfl rfl (ix3 b ⟨ρ.val - 2048, by have := ρ.isLt; omega⟩ k)
    (fun bb hne => match bb, hne with | ⟨0, _⟩, _ => rfl | ⟨1, _⟩, hne => absurd rfl hne | ⟨2, _⟩, _ => rfl)
    (by show (ρ.val - 2048) + 2048 = ρ.val; omega)

/-- The narrowed spatial block, entry by entry: the block itself. -/
theorem spatial_rows (x0 : Vec Ideal S1x2048x64 .f32) (r : Fin 2048) (k : Fin 64) :
    k0_pay1 (F := Ideal) x0 (ix2 r k) = x0 (ix3 (0 : Fin 1) r k) := by
  unfold k0_pay1
  refine (congrFun (shapeCast_self _ shapeCasts_S2048x64_S2048x64) (ix2 r k)).trans ?_
  exact shapeCast_1ab_ab_apply _ shapeCasts_S1x2048x64_S2048x64 r k

/-- The narrowed temporal block, entry by entry: the block itself. -/
theorem temporal_rows (x1 : Vec Ideal S1x64x64 .f32) (r : Fin 64) (k : Fin 64) :
    k0_pay2 (F := Ideal) x1 (ix2 r k) = x1 (ix3 (0 : Fin 1) r k) := by
  unfold k0_pay2
  refine (congrFun (shapeCast_self _ shapeCasts_S64x64_S64x64) (ix2 r k)).trans ?_
  exact shapeCast_1ab_ab_apply _ shapeCasts_S1x64x64_S64x64 r k

/-- Off the last store's rectangle, the canon is the canon of the earlier stores (the piece given by its two parts). -/
theorem canon_cons_miss {s : Shape} {e : EltTy} (r : Rect s) (w : r.shape.Idx → Elt Ideal e) (L : List (View.Piece (Elt Ideal) s e)) {y : s.Idx}
    (h : y ∉ r.set) : View.canon (⟨r, w⟩ :: L) y = View.canon L y :=
  View.canon_cons_of_not_mem (⟨r, w⟩ : View.Piece (Elt Ideal) s e) L h

/-- The table at a spatial row. -/
theorem table_spatial (x0 : Vec Ideal S1x2048x64 .f32) (x1 : Vec Ideal S1x64x64 .f32) (ρ : Fin 2112) (k : Fin 64) (h : ρ.val < 2048) :
    tableOf (F := Ideal) x0 x1 (ix2 ρ k) = x0 (ix3 (0 : Fin 1) ⟨ρ.val, h⟩ k) := by
  unfold tableOf tablePieces
  have hnot : ix2 ρ k ∉ (Rect.unit (s := S2112x64) ![2048, 0] S64x64.size inb_S2112x64_S64x64_2048_0).set := by
    rw [Rect.mem_set_unit]; intro hm
    have h0 : 2048 ≤ ρ.val := (hm 0).1
    omega
  rw [canon_cons_miss _ _ _ hnot]
  have he : ix2 ρ k = (Rect.unit (s := S2112x64) ![0, 0] S2048x64.size inb_S2112x64_S2048x64_0_0).emb (ix2 (⟨ρ.val, h⟩ : Fin 2048) k) :=
    funext fun a => Fin.ext (by
      match a with
      | ⟨0, _⟩ => show ρ.val = 0 + 1 * ρ.val; omega
      | ⟨1, _⟩ => show k.val = 0 + 1 * k.val; omega)
  rw [he, View.canon_cons_emb]
  exact spatial_rows x0 ⟨ρ.val, h⟩ k

/-- The table at a temporal row. -/
theorem table_temporal (x0 : Vec Ideal S1x2048x64 .f32) (x1 : Vec Ideal S1x64x64 .f32) (ρ : Fin 2112) (k : Fin 64) (h : 2048 ≤ ρ.val) :
    tableOf (F := Ideal) x0 x1 (ix2 ρ k) = x1 (ix3 (0 : Fin 1) ⟨ρ.val - 2048, by have := ρ.isLt; omega⟩ k) := by
  unfold tableOf tablePieces
  have he : ix2 ρ k = (Rect.unit (s := S2112x64) ![2048, 0] S64x64.size inb_S2112x64_S64x64_2048_0).emb (ix2 (⟨ρ.val - 2048, by have := ρ.isLt; omega⟩ : Fin 64) k) :=
    funext fun a => Fin.ext (by
      match a with
      | ⟨0, _⟩ => show ρ.val = 2048 + 1 * (ρ.val - 2048); omega
      | ⟨1, _⟩ => show k.val = 0 + 1 * k.val; omega)
  rw [he, View.canon_cons_emb]
  exact temporal_rows x1 _ k

/-- Where each window's block sits at point `t`, decided over the 32 points: the inputs' at batch t / 2, the output's
    at batch t / 2 and row tile t % 2. -/
theorem index_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N, _)

theorem batch_lt (t : Fin cfg0.N) : t.val / 2 < 16 := by
  have := t.isLt; have : cfg0.N = 32 := N_0; omega

variable (m : (ℓ : Loc nD τ sig) → Buf (Elt Ideal) ℓ)

/-- The spatial block of point `t` is batch t / 2 of the first argument. -/
theorem spatial_block (c : Dev nD) (t : Fin cfg0.N) (r : Fin 2048) (k : Fin 64) :
    iblk m c 0 t (ix3 (0 : Fin 1) r k) = V m c main_arg0 (ix3 (⟨t.val / 2, batch_lt t⟩ : Fin 16) r k) := by
  obtain ⟨e0, e1, e2, -⟩ := index_facts t
  show V m c main_arg0 (((cfg0.win 0).blk t).view.emb (ix3 (0 : Fin 1) r k)) = _
  refine congrArg _ (funext fun a => Fin.ext ?_)
  match a with
  | ⟨0, _⟩ => show win0_0.index t (0 : Fin 3) * 1 + 1 * 0 = t.val / 2; omega
  | ⟨1, _⟩ => show win0_0.index t (1 : Fin 3) * 2048 + 1 * r.val = r.val; omega
  | ⟨2, _⟩ => show win0_0.index t (2 : Fin 3) * 64 + 1 * k.val = k.val; omega

/-- The temporal block of point `t` is batch t / 2 of the second argument. -/
theorem temporal_block (c : Dev nD) (t : Fin cfg0.N) (r : Fin 64) (k : Fin 64) :
    iblk m c 1 t (ix3 (0 : Fin 1) r k) = V m c main_arg1 (ix3 (⟨t.val / 2, batch_lt t⟩ : Fin 16) r k) := by
  obtain ⟨-, -, -, e0, e1, e2, -⟩ := index_facts t
  show V m c main_arg1 (((cfg0.win 1).blk t).view.emb (ix3 (0 : Fin 1) r k)) = _
  refine congrArg _ (funext fun a => Fin.ext ?_)
  match a with
  | ⟨0, _⟩ => show win0_1.index t (0 : Fin 3) * 1 + 1 * 0 = t.val / 2; omega
  | ⟨1, _⟩ => show win0_1.index t (1 : Fin 3) * 64 + 1 * r.val = r.val; omega
  | ⟨2, _⟩ => show win0_1.index t (2 : Fin 3) * 64 + 1 * k.val = k.val; omega

/-- THE TABLE after position `n` is the joined node list of batch n / 2. -/
theorem tableAt_apply (c : Dev nD) (n : ℕ) (hn : n < cfg0.N) (ρ : Fin 2112) (k : Fin 64) :
    tableAt m c n hn (ix2 ρ k)
      = Cert.ReferenceIdeal.Read.val_main_v0 (F := Ideal) (V m c main_arg0) (V m c main_arg1) (ix3 (⟨n / 2, batch_lt ⟨n, hn⟩⟩ : Fin 16) ρ k) := by
  unfold tableAt tablePt
  rw [tableFill_eq]
  by_cases h : ρ.val < 2048
  · rw [table_spatial _ _ ρ k h, joined_spatial _ _ _ ρ k h, spatial_block]
    refine congrArg (V m c main_arg0) (funext fun a => Fin.ext ?_)
    match a with
    | ⟨0, _⟩ => show (n - n % 2) / 2 = n / 2; omega
    | ⟨1, _⟩ => rfl
    | ⟨2, _⟩ => rfl
  · have h' : 2048 ≤ ρ.val := Nat.le_of_not_lt h
    rw [table_temporal _ _ ρ k h', joined_temporal _ _ _ ρ k h', temporal_block]
    refine congrArg (V m c main_arg1) (funext fun a => Fin.ext ?_)
    match a with
    | ⟨0, _⟩ => show (n - n % 2) / 2 = n / 2; omega
    | ⟨1, _⟩ => rfl
    | ⟨2, _⟩ => rfl

end Cert.KernelIdeal.Tile

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.Ideal.SubTile.lean ====
/-
  One sub-tile, entry by entry, against the reference. At point t = (b, n) sub-tile k holds, at its row r and column c,
    tanh (max (∑_f T[R, f] · T[c, f]) 0) + (0.5 if R = c else 0),   R = 1056 n + 352 k + r,
  where T is the node table: the matrix unit's product into a zero accumulator is that sum over the 64 features, the
  row iota is offset by the array row of the sub-tile's first row, and the select picks 0.5 on the diagonal. The reference
  has the same sum (its dot_general over the joined node list of batch b), the same tanh of the same maximum, and the
  diagonal as (R = c, read as 0 or 1) · 0.5. On the extended reals 1 · x = x and 0 · x = 0, so the two agree with no
  finiteness needed.
-/
import proofs.«130418_j7172595384462_2_alg».proof.Proof.Ideal.Nodes
import proofs.«130418_j7172595384462_2_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Idealize.ShloMosaic Idealize.ShloMosaic.TcCoe Idealize.ShloMosaic.ValueIdx
open Idealize.SL Idealize.SL.Sem
open Cert.KernelIdeal Cert.KernelIdeal.Gen Cert.KernelIdeal.Body

/-- The array row of a sub-tile's first row, as the 32-bit word the body computes from the point and the trip. -/
def rowWord (i : grid0.Coords) (kk : Fin k0_t1_loop.trips) : BitVec 32 :=
  Scalar.addi (Scalar.muli (BitVec.ofNat 32 (i 1).val) 1056#32)
    (Scalar.muli (Scalar.addi 0#32 (Scalar.muli (Scf.iv 0#32 1#32 kk) 1#32)) 352#32)

/-- It is 1056 (t % 2) + 352 k — decided over the 32 points and the 3 trips. -/
theorem rowWord_eq : ∀ (t : Fin cfg0.N) (kk : Fin k0_t1_loop.trips),
    rowWord (grid0.coords t) kk = BitVec.ofNat 32 ((t.val % 2) * 1056 + kk.val * 352) :=
  (by decide +kernel : ∀ (t : Fin grid0.N) (kk : Fin k0_t1_loop.trips), _)

/-- The table rows a trip loads start at the same row; -/
theorem off1_eq : ∀ (t : Fin cfg0.N) (kk : Fin k0_t1_loop.trips),
    k0_off1 (grid0.coords t) kk 0 = (t.val % 2) * 1056 + kk.val * 352 ∧ k0_off1 (grid0.coords t) kk 1 = 0 :=
  (by decide +kernel : ∀ (t : Fin grid0.N) (kk : Fin k0_t1_loop.trips), _)

/-- and the trip stores at row 352 k of the tile. -/
theorem off2_eq : ∀ kk : Fin k0_t1_loop.trips, k0_off2 kk 0 = 0 ∧ k0_off2 kk 1 = kk.val * 352 ∧ k0_off2 kk 2 = 0 :=
  (by decide +kernel : ∀ kk : Fin k0_t1_loop.trips, _)

theorem trip_lt (kk : Fin k0_t1_loop.trips) : kk.val < 3 := Nat.lt_of_lt_of_le kk.isLt k0_t1_abs.2.1

/-- The select on a one-bit condition between x and zero is the condition, read as 0 or 1, times x. -/
theorem select_zero (b : BitVec 1) (H : EReal) :
    Scalar.select b H (Ideal.ofBits .f32 0x00000000#32) = ((b.toNat : ℝ) : EReal) * H := by
  rcases BitVec.eq_zero_or_eq_one b with rfl | rfl
  · show Ideal.ofBits .f32 0x00000000#32 = (((0#1 : BitVec 1).toNat : ℝ) : EReal) * H
    rw [Ideal.ofBits_zero_f32]; simp
  · show H = (((1#1 : BitVec 1).toNat : ℝ) : EReal) * H
    simp

/-- The kernel's elementwise tail at an entry. -/
theorem tail_entry (S : FVec Ideal S352x2112 .f32) (cnd : IVec S352x2112 1) (i : S352x2112.Idx) :
    addf (tanh (maximumf S (broadcast S352x2112 (Scalar.ofBits (F := Ideal) .f32 0x00000000#32))))
        (select cnd (broadcast S352x2112 (Scalar.ofBits (F := Ideal) .f32 0x3F000000#32)) (broadcast S352x2112 (Scalar.ofBits (F := Ideal) .f32 0x00000000#32))) i
      = Ideal.tanh (max (S i) (Ideal.ofBits .f32 0x00000000#32))
        + Scalar.select (cnd i) (Ideal.ofBits .f32 0x3F000000#32) (Ideal.ofBits .f32 0x00000000#32) := rfl

/-- The reference's elementwise tail at an entry. -/
theorem ref_entry (s : EReal) (b : BitVec 1) :
    FloatOps.addf (F := Ideal) (φ := .f32) (FloatOps.hostUnary .tanh (FloatOps.maximumf s (FloatOps.ofBits .f32 0x00000000#32)))
        (FloatOps.mulf (FloatOps.uitofp .f32 b) (FloatOps.ofBits .f32 0x3F000000#32))
      = Ideal.tanh (max s (Ideal.ofBits .f32 0x00000000#32)) + ((b.toNat : ℝ) : EReal) * Ideal.ofBits .f32 0x3F000000#32 := rfl

/-- The matrix unit's operand indices: the left operand is read at the result's row and the contraction position,
    the right operand at the result's column and the contraction position. -/
theorem lhs_row (j : S352x2112.Idx) (q : dot_S352x64_S2112x64_S352x2112_1_1_0_0_n_n.contr.Idx) : (dot_S352x64_S2112x64_S352x2112_1_1_0_0_n_n.lhsIdx j q 0).val = (j 0).val := by
  unfold DotDims.lhsIdx
  rw [dif_neg (show ¬(0 : Fin S352x64.rank) ∈ dot_S352x64_S2112x64_S352x2112_1_1_0_0_n_n.lhsBatch by decide), dif_pos (show (0 : Fin S352x64.rank) ∈ dot_S352x64_S2112x64_S352x2112_1_1_0_0_n_n.lhsNonContracting by decide)]
  rfl
theorem lhs_feat (j : S352x2112.Idx) (q : dot_S352x64_S2112x64_S352x2112_1_1_0_0_n_n.contr.Idx) : (dot_S352x64_S2112x64_S352x2112_1_1_0_0_n_n.lhsIdx j q 1).val = (q ⟨0, by decide⟩).val :=
  dot_S352x64_S2112x64_S352x2112_1_1_0_0_n_n.lhsIdx_val_of_single rfl j q
theorem rhs_row (j : S352x2112.Idx) (q : dot_S352x64_S2112x64_S352x2112_1_1_0_0_n_n.contr.Idx) : (dot_S352x64_S2112x64_S352x2112_1_1_0_0_n_n.rhsIdx j q 0).val = (j 1).val := by
  unfold DotDims.rhsIdx
  rw [dif_neg (show ¬(0 : Fin S2112x64.rank) ∈ dot_S352x64_S2112x64_S352x2112_1_1_0_0_n_n.rhsBatch by decide), dif_pos (show (0 : Fin S2112x64.rank) ∈ dot_S352x64_S2112x64_S352x2112_1_1_0_0_n_n.rhsNonContracting by decide)]
  rfl
theorem rhs_feat (j : S352x2112.Idx) (q : dot_S352x64_S2112x64_S352x2112_1_1_0_0_n_n.contr.Idx) : (dot_S352x64_S2112x64_S352x2112_1_1_0_0_n_n.rhsIdx j q 1).val = (q ⟨0, by decide⟩).val :=
  dot_S352x64_S2112x64_S352x2112_1_1_0_0_n_n.rhsIdx_val_of_single rfl j q

theorem lhs_at (r : Fin 352) (cc : Fin 2112) (k : Fin 64) :
    dot_S352x64_S2112x64_S352x2112_1_1_0_0_n_n.lhsIdx (ix2 r cc) ((contrEquiv1 dot_S352x64_S2112x64_S352x2112_1_1_0_0_n_n 64 rfl rfl).symm k) = ix2 r k := by
  have hk := contrEquiv1_symm_val dot_S352x64_S2112x64_S352x2112_1_1_0_0_n_n 64 rfl rfl k
  refine funext fun a => Fin.ext ?_
  match a with
  | ⟨0, _⟩ => exact lhs_row _ _
  | ⟨1, _⟩ => exact (lhs_feat _ _).trans hk

theorem rhs_at (r : Fin 352) (cc : Fin 2112) (k : Fin 64) :
    dot_S352x64_S2112x64_S352x2112_1_1_0_0_n_n.rhsIdx (ix2 r cc) ((contrEquiv1 dot_S352x64_S2112x64_S352x2112_1_1_0_0_n_n 64 rfl rfl).symm k) = ix2 cc k := by
  have hk := contrEquiv1_symm_val dot_S352x64_S2112x64_S352x2112_1_1_0_0_n_n 64 rfl rfl k
  refine funext fun a => Fin.ext ?_
  match a with
  | ⟨0, _⟩ => exact rhs_row _ _
  | ⟨1, _⟩ => exact (rhs_feat _ _).trans hk

variable (x0 : (⟨Cert.ReferenceIdeal.S16x2048x64, .f32⟩ : BufTy).Contents (Elt Ideal)) (x1 : (⟨Cert.ReferenceIdeal.S16x64x64, .f32⟩ : BufTy).Contents (Elt Ideal))

/-- SUB-TILE k OF POINT t, at row r and column c, is the reference's result at (t / 2, 1056 (t % 2) + 352 k + r, c),
    whenever the table holds the joined node list of batch t / 2. -/
theorem subTile_entry (t : Fin cfg0.N) (kk : Fin k0_t1_loop.trips) (T : Vec Ideal S2112x64 .bf16)
    (hT : ∀ (ρ : Fin 2112) (k : Fin 64), T (ix2 ρ k) = Cert.ReferenceIdeal.Read.val_main_v0 (F := Ideal) x0 x1 (ix3 (⟨t.val / 2, batch_lt t⟩ : Fin 16) ρ k))
    (r : Fin 352) (cc : Fin 2112) (R : Fin 2112) (hR : R.val = (t.val % 2) * 1056 + kk.val * 352 + r.val) :
    k0_pay3 (F := Ideal) (grid0.coords t) T kk
        (View.ld T (Rect.unit (s := S2112x64) (k0_off1 (grid0.coords t) kk) S352x64.size (k0_off1_inb (grid0.coords t) kk))) (ix3 (0 : Fin 1) r cc)
      = Cert.ReferenceIdeal.Read.val_main_v14 (F := Ideal) x0 x1 (ix3 (⟨t.val / 2, batch_lt t⟩ : Fin 16) R cc) := by
  unfold k0_pay3
  refine (shapeCast_ab_1ab_apply _ shapeCasts_S352x2112_S1x352x2112 (0 : Fin 1) r cc).trans ?_
  refine (tail_entry _ _ (ix2 r cc)).trans ?_
  rw [Cert.ReferenceIdeal.Read.val_main_v14_apply, Cert.ReferenceIdeal.Read.val_main_v3_apply, Cert.ReferenceIdeal.Read.val_main_v2_apply, Cert.ReferenceIdeal.Read.val_main_v1_apply,
    Cert.ReferenceIdeal.Read.val_main_call0_v0_apply, Cert.ReferenceIdeal.Read.val_main_call0_cst_apply, Cert.ReferenceIdeal.Read.val_main_v13_apply, Cert.ReferenceIdeal.Read.val_main_v12_apply,
    Cert.ReferenceIdeal.Read.val_main_v11_apply, Cert.ReferenceIdeal.Read.val_main_v9_apply, Cert.ReferenceIdeal.Read.val_main_v8_apply, Cert.ReferenceIdeal.Read.val_main_v7_apply,
    Cert.ReferenceIdeal.Read.val_main_v4_apply, Cert.ReferenceIdeal.Read.val_main_v5_apply, Cert.ReferenceIdeal.Read.val_main_v6_apply, Cert.ReferenceIdeal.Read.val_main_c_apply,
    Cert.ReferenceIdeal.Read.val_main_v10_apply, Cert.ReferenceIdeal.Read.val_main_cst_apply]
  refine Eq.trans ?_ (ref_entry _ _).symm
  rw [select_zero]
  refine congrArg₂ (fun a b : EReal => a + b) (congrArg Ideal.tanh (congrArg (fun s : EReal => max s (Ideal.ofBits .f32 0x00000000#32)) ?sum))
    (congrArg (fun b : BitVec 1 => ((b.toNat : ℝ) : EReal) * Ideal.ofBits .f32 0x3F000000#32) ?bit)
  case sum =>
    refine (Ideal.matmul_constant_zero_apply (φ₁ := .bf16) (φ₂ := .bf16) dot_S352x64_S2112x64_S352x2112_1_1_0_0_n_n none _ T (ix2 r cc)).trans ?_
    rw [Cert.LibDot.sum_contr_eq dot_S352x64_S2112x64_S352x2112_1_1_0_0_n_n 64 rfl rfl _ _ (ix2 r cc) (fun k => ix2 r k) (fun k => ix2 cc k) (lhs_at r cc) (rhs_at r cc)]
    refine Finset.sum_congr rfl fun k _ => ?_
    obtain ⟨o0, o1⟩ := off1_eq t kk
    have hld : View.ld T (Rect.unit (s := S2112x64) (k0_off1 (grid0.coords t) kk) S352x64.size (k0_off1_inb (grid0.coords t) kk)) (ix2 r k) = T (ix2 R k) :=
      congrArg T (funext fun a => Fin.ext (by
        match a with
        | ⟨0, _⟩ => show k0_off1 (grid0.coords t) kk 0 + 1 * r.val = R.val; omega
        | ⟨1, _⟩ => show k0_off1 (grid0.coords t) kk 1 + 1 * k.val = k.val; omega))
    have el : Cert.ReferenceIdeal.Read.lidx_main_v1 (ix3 (⟨t.val / 2, batch_lt t⟩ : Fin 16) R cc) k = ix3 (⟨t.val / 2, batch_lt t⟩ : Fin 16) R k :=
      funext fun a => match a with | ⟨0, _⟩ => rfl | ⟨1, _⟩ => rfl | ⟨2, _⟩ => rfl
    have er : Cert.ReferenceIdeal.Read.ridx_main_v1 (ix3 (⟨t.val / 2, batch_lt t⟩ : Fin 16) R cc) k = ix3 (⟨t.val / 2, batch_lt t⟩ : Fin 16) cc k :=
      funext fun a => match a with | ⟨0, _⟩ => rfl | ⟨1, _⟩ => rfl | ⟨2, _⟩ => rfl
    rw [hld, hT, hT, el, er]
  case bit =>
    show IntOp.cmpi .eq (IntOp.addi (rowWord (grid0.coords t) kk) (iota .tc S352x2112 32 [0] iota_S352x2112_d0_w32 (ix2 r cc))) (iota .tc S352x2112 32 [1] iota_S352x2112_d1_w32 (ix2 r cc))
      = IntOp.cmpi .eq (IntOp.addi (BitVec.ofNat 32 R.val) 0#32) (BitVec.ofNat 32 cc.val)
    rw [iota_single_apply, iota_single_apply, rowWord_eq]
    show IntOp.cmpi .eq (BitVec.ofNat 32 ((t.val % 2) * 1056 + kk.val * 352) + BitVec.ofNat 32 r.val) (BitVec.ofNat 32 cc.val)
      = IntOp.cmpi .eq (BitVec.ofNat 32 R.val + 0#32) (BitVec.ofNat 32 cc.val)
    rw [← BitVec.ofNat_add, BitVec.add_zero, hR]

end Cert.KernelIdeal.Tile

end
-- ==== Proof.Ideal.Result.lean ====
/-
  From tiles to the array. The output tile of point t = (b, n) is, entry by entry, the reference's result at
  (b, 1056 n + row, column): each of its three pieces is a sub-tile whose entries are that (the table being the joined
  node list of batch b — rebuilt at this point when n = 0, kept from the point before when n = 1), and the pieces cover
  the tile. Block t of the output array is the rows 1056 n .. 1056 n + 1055 of batch b, so what point t writes back is
  block t of the reference's result; the 32 blocks cover the array; hence the array ends holding the reference's result
  of the argument arrays.
-/
import proofs.«130418_j7172595384462_2_alg».proof.Proof.Ideal.SubTile
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Idealize.ShloMosaic Idealize.ShloMosaic.TcCoe Idealize.ShloMosaic.ValueIdx
open Idealize.SL Idealize.SL.Sem
open Cert.KernelIdeal Cert.KernelIdeal.Gen Cert.KernelIdeal.Body

variable (m : (ℓ : Loc nD τ sig) → Buf (Elt Ideal) ℓ) (ρ : Dev nD → PrngReg)

/-- The reference's result of the argument arrays as core `c` finds them. -/
abbrev adj (c : Dev nD) : (⟨Cert.ReferenceIdeal.S16x2112x2112, .f32⟩ : BufTy).Contents (Elt Ideal) :=
  Cert.ReferenceIdeal.Read.val_main_v14 (F := Ideal) (V m c main_arg0) (V m c main_arg1)

theorem row_lt (t : Fin cfg0.N) (r : Fin 1056) : (t.val % 2) * 1056 + r.val < 2112 := by
  have := r.isLt; omega

/-- What point `t`'s tile should hold, entry by entry: the reference's result at batch t / 2, row 1056 (t % 2) + row. -/
abbrev tileSpec (c : Dev nD) (t : Fin cfg0.N) : S1x1056x2112.Idx → Elt Ideal .f32 :=
  fun j => adj m c (ix3 (⟨t.val / 2, batch_lt t⟩ : Fin 16) (⟨(t.val % 2) * 1056 + (j 1).val, row_lt t (j 1)⟩ : Fin 2112) (j 2))

/-- A piece of point `t`'s tile, entry by entry, when the table is batch t / 2's joined node list. -/
theorem piece_entry (c : Dev nD) (t : Fin cfg0.N) (T : Vec Ideal S2112x64 .bf16)
    (hT : ∀ (ρ : Fin 2112) (k : Fin 64), T (ix2 ρ k) = Cert.ReferenceIdeal.Read.val_main_v0 (F := Ideal) (V m c main_arg0) (V m c main_arg1) (ix3 (⟨t.val / 2, batch_lt t⟩ : Fin 16) ρ k))
    (kk : Fin k0_t1_loop.trips) (x : (subTile (F := Ideal) (grid0.coords t) T kk).1.shape.Idx) :
    (subTile (F := Ideal) (grid0.coords t) T kk).2 x
      = tileSpec m c t ((subTile (F := Ideal) (grid0.coords t) T kk).1.emb x) := by
  obtain ⟨u, r, cc, rfl⟩ : ∃ (u : Fin 1) (r : Fin 352) (cc : Fin 2112), x = ix3 u r cc := ⟨x 0, x 1, x 2, eq_ix3 x⟩
  obtain rfl : u = 0 := Subsingleton.elim _ _
  obtain ⟨o0, o1, o2⟩ := off2_eq kk
  have hk := trip_lt kk
  have hR : (t.val % 2) * 1056 + kk.val * 352 + r.val < 2112 := by have := r.isLt; omega
  refine (subTile_entry (V m c main_arg0) (V m c main_arg1) t kk T hT r cc ⟨(t.val % 2) * 1056 + kk.val * 352 + r.val, hR⟩ rfl).trans ?_
  refine congrArg (adj m c) (funext fun a => Fin.ext ?_)
  match a with
  | ⟨0, _⟩ => rfl
  | ⟨1, _⟩ => show (t.val % 2) * 1056 + kk.val * 352 + r.val = (t.val % 2) * 1056 + (k0_off2 kk 1 + 1 * r.val); omega
  | ⟨2, _⟩ => show cc.val = k0_off2 kk 2 + 1 * cc.val; omega

/-- THE TILE of point `t`, entry by entry. -/
theorem tileAt_entry (c : Dev nD) (t : Fin cfg0.N) (j : S1x1056x2112.Idx) :
    tileAt m c t j = tileSpec m c t j := by
  by_cases h0 : t.val % 2 = 0
  · -- the table is rebuilt here from the point's own blocks
    have hT : ∀ (ρ : Fin 2112) (k : Fin 64), tableOf (F := Ideal) (iblk m c 0 t) (iblk m c 1 t) (ix2 ρ k)
        = Cert.ReferenceIdeal.Read.val_main_v0 (F := Ideal) (V m c main_arg0) (V m c main_arg1) (ix3 (⟨t.val / 2, batch_lt t⟩ : Fin 16) ρ k) := fun ρ k => by
      have e := tableAt_apply m c t.val t.isLt ρ k
      rw [tableAt_even m c t h0] at e
      unfold tablePt at e
      rw [tableFill_eq] at e
      exact e
    rw [tileAt_even m c t h0]
    unfold tileFill
    rw [View.read_writes_junk_eq_canon]
    refine View.canon_apply_of_pieces (tileSpec m c t) _ (fun p hp x => ?_) j (tile_cover_fill (F := Ideal) c _ _ _ _ _ _ _ _ _ _ _ _ j)
    obtain ⟨kk, rfl⟩ := mem_tile_fill (F := Ideal) c _ _ _ _ _ _ _ _ _ _ _ _ p hp
    exact piece_entry m c t _ hT kk x
  · -- the table is the one the point before left
    have hT : ∀ (ρ : Fin 2112) (k : Fin 64), tableAt m c (t.val - 1) (Nat.lt_of_le_of_lt (Nat.sub_le _ _) t.isLt) (ix2 ρ k)
        = Cert.ReferenceIdeal.Read.val_main_v0 (F := Ideal) (V m c main_arg0) (V m c main_arg1) (ix3 (⟨t.val / 2, batch_lt t⟩ : Fin 16) ρ k) := fun ρ k => by
      rw [tableAt_apply m c (t.val - 1) _ ρ k]
      refine congrArg _ (funext fun a => Fin.ext ?_)
      match a with
      | ⟨0, _⟩ => show (t.val - 1) / 2 = t.val / 2; omega
      | ⟨1, _⟩ => rfl
      | ⟨2, _⟩ => rfl
    rw [tileAt_odd m c t h0]
    unfold tileReuse
    rw [View.read_writes_junk_eq_canon]
    refine View.canon_apply_of_pieces (tileSpec m c t) _ (fun p hp x => ?_) j (tile_cover_reuse (F := Ideal) c _ _ _ _ _ _ _ _ _ _ _ _ _ j)
    obtain ⟨kk, rfl⟩ := mem_tile_reuse (F := Ideal) c _ _ _ _ _ _ _ _ _ _ _ _ _ p hp
    exact piece_entry m c t _ hT kk x

/-- WHAT POINT `t` WRITES BACK is block `t` of the reference's result. -/
theorem flushed_eq (c : Dev nD) (t : Fin cfg0.N) :
    (dats m 0 c).flushed 2 t = ((cfg0.win 2).blk t).view.read (Elt Ideal) (adj m c) := by
  show (cfg0.win 2).cut (grid0.coords t) ((dats m 0 c).after 2 t) = _
  rw [after_2]
  funext j
  obtain ⟨-, -, -, -, -, -, e0, e1, e2⟩ := index_facts t
  show tileAt m c t j = adj m c (((cfg0.win 2).blk t).view.emb j)
  rw [tileAt_entry]
  refine congrArg (adj m c) (funext fun a => Fin.ext ?_)
  match a with
  | ⟨0, _⟩ => show t.val / 2 = win0_2.index t (0 : Fin 3) * 1 + 1 * (j 0).val; have hj : (j 0).val < 1 := (j 0).isLt; omega
  | ⟨1, _⟩ => show (t.val % 2) * 1056 + (j 1).val = win0_2.index t (1 : Fin 3) * 1056 + 1 * (j 1).val; omega
  | ⟨2, _⟩ => show (j 2).val = win0_2.index t (2 : Fin 3) * 2112 + 1 * (j 2).val; omega

/-- An index of the array is in point `t`'s block iff each coordinate is in the block's range on its axis. -/
theorem mem_blk (t : Fin cfg0.N) (i : S16x2112x2112.Idx) :
    i ∈ ((cfg0.win 2).blk t).view.set ↔ ∀ a : Fin 3, win0_2.index t a * S1x1056x2112.size a ≤ (i a).val ∧ (i a).val < win0_2.index t a * S1x1056x2112.size a + S1x1056x2112.size a := by
  show i ∈ ((View.whole main_v0).slice (win0_2.rect t)).set ↔ _
  rw [View.set_slice_whole, Rect.mem_set_unit]
  exact Iff.rfl

/-- Every index of the array is in the block of the point (batch, row / 1056). -/
theorem cover (i : S16x2112x2112.Idx) : ∃ t : Fin cfg0.N, (cfg0.win 2).flush t = true ∧ i ∈ ((cfg0.win 2).blk t).view.set := by
  have hi0 : (i 0).val < 16 := (i 0).isLt
  have hi1 : (i 1).val < 2112 := (i 1).isLt
  have hi2 : (i 2).val < 2112 := (i 2).isLt
  have hN : 2 * (i 0).val + (i 1).val / 1056 < cfg0.N := by rw [show cfg0.N = 32 from N_0]; omega
  refine ⟨⟨2 * (i 0).val + (i 1).val / 1056, hN⟩, flush0_2 _, ?_⟩
  rw [mem_blk]
  obtain ⟨-, -, -, -, -, -, e0, e1, e2⟩ := index_facts ⟨2 * (i 0).val + (i 1).val / 1056, hN⟩
  have e0' : win0_2.index ⟨2 * (i 0).val + (i 1).val / 1056, hN⟩ (0 : Fin 3) = (2 * (i 0).val + (i 1).val / 1056) / 2 := e0
  have e1' : win0_2.index ⟨2 * (i 0).val + (i 1).val / 1056, hN⟩ (1 : Fin 3) = (2 * (i 0).val + (i 1).val / 1056) % 2 := e1
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1056 ≤ (i 1).val ∧ (i 1).val < win0_2.index _ (1 : Fin 3) * 1056 + 1056; omega
  | ⟨2, _⟩ => show win0_2.index _ (2 : Fin 3) * 2112 ≤ (i 2).val ∧ (i 2).val < win0_2.index _ (2 : Fin 3) * 2112 + 2112; omega

/-- THE ARRAY after the run is the reference's result of the argument arrays. -/
theorem final (c : Dev nD) : (dats m 0 c).arrAt 2 cfg0.N = adj m c :=
  (dats m 0 c).arrAt_eq_of_cover 2 (adj m c) (fun t _ => flushed_eq m c t) cover

/-- The run of the idealized kernel, read: the result array ends at the reference's result of the argument arrays as
    launched, which end unchanged. -/
theorem run : θ_run defs (onTc (τ := τ) (main (F := Ideal))) ⟨m, fun _ => 0, ρ⟩ fun r => ∀ c : Dev nD,
      r.2.mem ((c : Thread nD τ).loc main_v0) = Cert.ReferenceIdeal.Read.val_main_v14 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tile

end
-- ==== Proof.lean ====
/-
  The kernel computes, for each of 16 batches, the adjacency tanh (relu (X Xᵀ)) + ½ I of the batch's 2112 node
  embeddings X (2048 spatial rows, then 64 temporal rows, 64 features each). It walks a grid of 16 × 2 points: point
  (b, n) produces rows 1056 n .. 1056 n + 1055 of batch b, in three sub-tiles of 352 rows. The joined node table X of a
  batch is kept in a scratch buffer: it is rebuilt at n = 0 from the two input blocks and read again at n = 1.

  The frames (of the kernel as printed, and of its idealization): the region's invariant carries the table from a point
  to the next — after point t it is the table the even point of t's pair wrote —, the loop over the sub-tiles runs by
  its invariant, and the argument arrays are only read.

  The values, over the extended reals, where narrowing a float is the identity: the table of batch b is row by row the
  reference's concatenation; entry (R, c) of the product into a zero accumulator is ∑_f X[R, f] · X[c, f], the
  reference's dot_general; both sides take tanh of the maximum with 0; and the kernel's select of 0.5 on the diagonal
  is the reference's (R = c, as 0 or 1) · 0.5, because 1 · x = x and 0 · x = 0 for every extended real x. No step
  distributes, cancels or reorders, so the finiteness of the inputs is never used. The blocks the 32 points write back
  are disjoint and cover the result array, which therefore ends holding the reference's result of the arguments.
-/
import proofs.«130418_j7172595384462_2_alg».proof.Defs
import proofs.«130418_j7172595384462_2_alg».proof.Proof.Gen.Kernel
import proofs.«130418_j7172595384462_2_alg».proof.Proof.Gen.KernelIdeal
import proofs.«130418_j7172595384462_2_alg».proof.Proof.Gen.ReferenceIdeal
import proofs.«130418_j7172595384462_2_alg».proof.Proof.Gen.Pre_finite_inputs
import proofs.«130418_j7172595384462_2_alg».proof.Proof.Gen.ReferenceIdeal.Run
import proofs.«130418_j7172595384462_2_alg».proof.Proof.Gen.ReferenceIdeal.Read
import proofs.«130418_j7172595384462_2_alg».proof.Proof.Bits.Region
import proofs.«130418_j7172595384462_2_alg».proof.Proof.Ideal.Result
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Body.frame m ρ

/-- So does its idealization. -/
theorem frame_ideal : Cert.frame_KernelIdeal := fun m ρ _ => Cert.KernelIdeal.Body.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the same function of the arguments: the reference's own composed term,
    read one operation at a time. -/
theorem algebraic : Cert.algebraic_KernelIdeal_ReferenceIdeal := by
  intro m ρ m' ρ' _ hagree
  refine ⟨fun c => Cert.ReferenceIdeal.Read.val_main_v14 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Read.val_main_v14_eq _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
